-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S600000 : Shape := ⟨1, ![600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : FVec F S128x128 .f32) (main_arg2 : FVec F S128 .f32) (main_arg3 : IVec S600000 32) (main_arg4 : IVec S600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S128 : Shape := ⟨1, ![128]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S5000x128 : Shape := ⟨2, ![5000, 128]⟩
abbrev S5000x1 : Shape := ⟨2, ![5000, 1]⟩
abbrev S600000x128 : Shape := ⟨2, ![600000, 128]⟩
abbrev S1x128 : Shape := ⟨2, ![1, 128]⟩

abbrev nBuf : Space → Nat
  | .hbm => 35
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S600000, .i32⟩
  | .hbm, ⟨4, _⟩ => ⟨S600000, .i32⟩
  | .hbm, ⟨5, _⟩ => ⟨S_, .f32⟩
  | .hbm, ⟨6, _⟩ => ⟨S600000, .f32⟩
  | .hbm, ⟨7, _⟩ => ⟨S_, .f32⟩
  | .hbm, ⟨8, _⟩ => ⟨S100000, .f32⟩
  | .hbm, ⟨9, _⟩ => ⟨S600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x128, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .f32⟩
  | .hbm, ⟨30, _⟩ => ⟨S100000x128, .f32⟩
  | .hbm, ⟨31, _⟩ => ⟨S600000x1, .i32⟩
  | .hbm, ⟨32, _⟩ => ⟨S100000x128, .f32⟩
  | .hbm, ⟨33, _⟩ => ⟨S1x128, .f32⟩
  | .hbm, ⟨34, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S600000, .i32⟩
  | .hbm, ⟨4, _⟩ => ⟨S600000, .i32⟩
  | .hbm, ⟨5, _⟩ => ⟨S_, .f32⟩
  | .hbm, ⟨6, _⟩ => ⟨S600000, .f32⟩
  | .hbm, ⟨7, _⟩ => ⟨S_, .f32⟩
  | .hbm, ⟨8, _⟩ => ⟨S100000, .f32⟩
  | .hbm, ⟨9, _⟩ => ⟨S600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x128, .f32⟩
  | .hbm, ⟨20, _⟩ => ⟨S100000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S_, .f32⟩
  | .hbm, ⟨31, _⟩ => ⟨S100000x128, .f32⟩
  | .hbm, ⟨32, _⟩ => ⟨S600000x1, .i32⟩
  | .hbm, ⟨33, _⟩ => ⟨S100000x128, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized program's run with the result array named.

  @main is six segments: three stretches of host operations (the in-degree count, its clamp and power, the reshape to a
  column), the row-scaling region, one more stretch (the gather of source rows and their scatter-add by destination,
  and the bias viewed as a row), and the region that scales, multiplies by the weights and adds the bias.  The buffer
  contents at each boundary are a fold from the launch memory, `W0 … W6`; at the end every unscoped buffer holds `W6`.
  So the result array `main_v20` ends at `W6` read at its reference, which is what the last region's write-backs
  leave in its output window, and the five argument arrays end as launched.
-/
import proofs.«138295_j30193620090942_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents read at its reference and the five argument arrays as launched. -/
theorem run_result : θ_run defs (onTc (τ := τ) (main (F := F))) ⟨m, fun _ => 0, ρ⟩ (fun r => ∀ c : Dev nD,
      r.2.mem ((c.tc : Thread nD τ).loc main_v20) = W6 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v20 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

/-- The result array is the last region's output window: it ends at what that region's write-backs leave. -/
theorem result_arr (c : Dev nD) :
    W6 m ρ c (Proc.devRef .tc main_v20) = (dat1 (V5 m ρ) c).arrAt 4 cfg1.N :=
  W6_arr m ρ c 4

end Cert.KernelIdeal.Whole

end
-- ==== Proof.GcnSpec.lean ====
/-
  The two dense steps of a degree-normalised graph convolution, as functions of whole arrays over the extended reals.

  With `n` a column of per-row scales, `scaleRows x n` multiplies row `p` of `x` by `n p`.  And `project x n w r` is, at
  `(p, q)`, the sum over `j` of `(x(p,j) · n(p)) · w(j,q)`, plus `r(q)`: the rows of `x` scaled, the scaled array
  multiplied by the matrix `w`, the row `r` added to every row of the product.  Both are stated for every extent, so the
  same two functions describe one block of rows and the whole array: a block of rows of either result depends only on
  the same rows of `x` and `n` (and on all of `w` and `r`).
-/
import Idealize.ShloMosaic.PureOps.Ideal
import Idealize.ShloMosaic.Lib.ValueIdx

noncomputable section

namespace Cert.Gcn

open Idealize.ShloMosaic Idealize.ShloMosaic.ValueIdx

/-- Row `p` of `x` times the scale `n p`. -/
def scaleRows {a b : ℕ} (x : (⟨2, ![a, b]⟩ : Shape).Idx → EReal) (n : (⟨2, ![a, 1]⟩ : Shape).Idx → EReal) :
    (⟨2, ![a, b]⟩ : Shape).Idx → EReal :=
  fun i => x i * n (ix2 ⟨(i 0).val, idx2_lt0 i⟩ (0 : Fin 1))

theorem scaleRows_apply {a b : ℕ} (x : (⟨2, ![a, b]⟩ : Shape).Idx → EReal) (n : (⟨2, ![a, 1]⟩ : Shape).Idx → EReal)
    (p : Fin a) (q : Fin b) : scaleRows x n (ix2 p q) = x (ix2 p q) * n (ix2 p (0 : Fin 1)) := rfl

/-- The rows of `x` scaled by `n`, times the matrix `w`, plus the row `r`. -/
def project {a k b : ℕ} (x : (⟨2, ![a, k]⟩ : Shape).Idx → EReal) (n : (⟨2, ![a, 1]⟩ : Shape).Idx → EReal)
    (w : (⟨2, ![k, b]⟩ : Shape).Idx → EReal) (r : (⟨2, ![1, b]⟩ : Shape).Idx → EReal) :
    (⟨2, ![a, b]⟩ : Shape).Idx → EReal :=
  fun i => (∑ j : Fin k, (x (ix2 ⟨(i 0).val, idx2_lt0 i⟩ j) * n (ix2 ⟨(i 0).val, idx2_lt0 i⟩ (0 : Fin 1)))
      * w (ix2 j ⟨(i 1).val, idx2_lt1 i⟩)) + r (ix2 (0 : Fin 1) ⟨(i 1).val, idx2_lt1 i⟩)

theorem project_apply {a k b : ℕ} (x : (⟨2, ![a, k]⟩ : Shape).Idx → EReal) (n : (⟨2, ![a, 1]⟩ : Shape).Idx → EReal)
    (w : (⟨2, ![k, b]⟩ : Shape).Idx → EReal) (r : (⟨2, ![1, b]⟩ : Shape).Idx → EReal) (p : Fin a) (q : Fin b) :
    project x n w r (ix2 p q)
      = (∑ j : Fin k, (x (ix2 p j) * n (ix2 p (0 : Fin 1))) * w (ix2 j q)) + r (ix2 (0 : Fin 1) q) := rfl

end Cert.Gcn

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.BlockValues.lean ====
/-
  What each kernel body stores, as a function of the blocks it loads.

  The first body multiplies a block of 5000 rows by the block's column of scales, spread along the rows: it stores
  `scaleRows` of its two blocks.  The second scales its block the same way, narrows it and the weights to bf16 (the
  identity on the extended reals), multiplies the two on the matrix unit into a zero accumulator (entry `(p, q)` is the
  sum over `k` of row entry times column entry) and adds the bias row spread down the rows: it stores `project` of its
  four blocks.
-/
import proofs.«138295_j30193620090942_1_alg».proof.Proof.Gen.KernelIdeal.Skeleton
import proofs.«138295_j30193620090942_1_alg».proof.Proof.GcnSpec
import proofs.«138295_j30193620090942_1_alg».proof.Proof.LibPlainDot
import proofs.«138295_j30193620090942_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blocks

open Cert.KernelIdeal Cert.KernelIdeal.Gen
open Idealize.ShloMosaic Idealize.ShloMosaic.ValueIdx

/-- The column of scales spread along a block's rows reads, at `(p, q)`, the scale of row `p`. -/
theorem spread_col (x1 : Vec Ideal S5000x1 .f32) (p : Fin 5000) (q : Fin 128) :
    broadcastTo S5000x128 (shapeCast S5000x1 x1 shapeCasts_S5000x1_S5000x1) broadcasts_S5000x1_S5000x128 (ix2 p q)
      = x1 (ix2 p (0 : Fin 1)) := by
  rw [Cert.Lib.Keepdims.broadcastTo_a1_ab_apply, shapeCast_self]

/-- The first body's stored value at `(p, q)`: the block's entry times its row's scale. -/
theorem scale_at (x0 : Vec Ideal S5000x128 .f32) (x1 : Vec Ideal S5000x1 .f32) (p : Fin 5000) (q : Fin 128) :
    k0_pay1 x0 x1 (ix2 p q) = x0 (ix2 p q) * x1 (ix2 p (0 : Fin 1)) := by
  unfold k0_pay1
  exact congrArg (fun z => x0 (ix2 p q) * z) (spread_col x1 p q)

/-- The first body stores its block with its rows scaled. -/
theorem scale_eq (x0 : Vec Ideal S5000x128 .f32) (x1 : Vec Ideal S5000x1 .f32) :
    k0_pay1 x0 x1 = Cert.Gcn.scaleRows (a := 5000) (b := 128) x0 x1 := by
  funext j
  obtain ⟨p, q, rfl⟩ : ∃ (p : Fin 5000) (q : Fin 128), j = ix2 p q := ⟨j 0, j 1, eq_ix2 j⟩
  rw [scale_at, Cert.Gcn.scaleRows_apply]

/-- The bias row spread down a block's rows reads, at `(p, q)`, the bias of column `q`. -/
theorem spread_row (x3 : Vec Ideal S1x128 .f32) (p : Fin 5000) (q : Fin 128) :
    broadcastTo S5000x128 (shapeCast S1x128 x3 shapeCasts_S1x128_S1x128) broadcasts_S1x128_S5000x128 (ix2 p q)
      = x3 (ix2 (0 : Fin 1) q) := by
  rw [broadcastTo_1b_ab_apply, shapeCast_self]

/-- The second body's stored value at `(p, q)`. -/
theorem project_at (x0 : Vec Ideal S5000x128 .f32) (x1 : Vec Ideal S5000x1 .f32) (x2 : Vec Ideal S128x128 .f32)
    (x3 : Vec Ideal S1x128 .f32) (p : Fin 5000) (q : Fin 128) :
    k1_pay1 x0 x1 x2 x3 (ix2 p q)
      = (∑ k : Fin 128, (x0 (ix2 p k) * x1 (ix2 p (0 : Fin 1))) * x2 (ix2 k q)) + x3 (ix2 (0 : Fin 1) q) := by
  unfold k1_pay1
  refine (addf_apply _ _ _).trans ?_
  refine congrArg₂ (· + ·) ?_ (spread_row x3 p q)
  refine (Cert.PlainDot.matmul_zero_apply (M := 5000) (K := 128) (N := 128)
    dot_S5000x128_S128x128_S5000x128_1_0_0_1_n_n rfl _ _ p q).trans ?_
  refine Finset.sum_congr rfl fun k _ => ?_
  refine congrArg₂ (· * ·) ?_ rfl
  show shapeCast S5000x128 x0 shapeCasts_S5000x128_S5000x128 (ix2 p k) * _ = _
  rw [shapeCast_self]
  exact congrArg (fun z => x0 (ix2 p k) * z) (spread_col x1 p k)

/-- The second body stores `project` of its four blocks. -/
theorem project_eq (x0 : Vec Ideal S5000x128 .f32) (x1 : Vec Ideal S5000x1 .f32) (x2 : Vec Ideal S128x128 .f32)
    (x3 : Vec Ideal S1x128 .f32) :
    k1_pay1 x0 x1 x2 x3 = Cert.Gcn.project (a := 5000) (k := 128) (b := 128) x0 x1 x2 x3 := by
  funext j
  obtain ⟨p, q, rfl⟩ : ∃ (p : Fin 5000) (q : Fin 128), j = ix2 p q := ⟨j 0, j 1, eq_ix2 j⟩
  rw [project_at, Cert.Gcn.project_apply]

end Cert.KernelIdeal.Blocks

end
-- ==== Proof.RegionArrays.lean ====
/-
  Each region's output array as ONE function of the arrays the region finds.

  Both regions walk twenty grid points; at point `t` every row-blocked window holds block row `t` (rows
  `5000·t … 5000·t + 4999`, all 128 columns; the column of scales the same rows of its one column), the weights and the
  bias row are their whole arrays at every point, and the output block is written back at every point.  What a body
  stores is `scaleRows` (first region) or `project` (second region) of its blocks, and a block of rows of either
  function depends only on the same rows of its row-blocked operands.  So what point `t` writes back is block row `t`
  of the same function of the WHOLE arrays; the twenty blocks tile the output; hence the output array ends holding that
  function of the arrays the region was entered with.
-/
import proofs.«138295_j30193620090942_1_alg».proof.Proof.Gen.KernelIdeal.Frame
import proofs.«138295_j30193620090942_1_alg».proof.Proof.BlockValues
import Idealize.ShloMosaic.Lib.Pipeline.Value

set_option maxRecDepth 16384

noncomputable section

namespace Cert.KernelIdeal.Regions

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first region: rows scaled -/

/-- The first region's index maps over its grid: block row `t`, block column 0, for all three windows. -/
theorem index0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The feature window's block at point `t` is rows `5000·t …` of the feature array. -/
theorem feat_block (c : Dev nD) (t : Fin cfg0.N) (x : S5000x128.Idx) (k : S100000x128.Idx)
    (hk0 : (k 0).val = t.val * 5000 + (x 0).val) (hk1 : (k 1).val = (x 1).val) :
    (iblk0 V c 0 t : Vec Ideal S5000x128 .f32) x = (V c main_arg0 : S100000x128.Idx → EReal) k := by
  obtain ⟨e0, e1, -⟩ := index0 t
  unfold iblk0
  rw [View.read_apply]
  show V c main_arg0 _ = V c main_arg0 _
  refine congrArg (V c main_arg0) ?_
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The scale window's block at point `t` is rows `5000·t …` of the column of scales. -/
theorem scale_block (c : Dev nD) (t : Fin cfg0.N) (x : S5000x1.Idx) (k : S100000x1.Idx)
    (hk0 : (k 0).val = t.val * 5000 + (x 0).val) (hk1 : (k 1).val = (x 1).val) :
    (iblk0 V c 1 t : Vec Ideal S5000x1 .f32) x = (V c main_v7 : S100000x1.Idx → EReal) k := by
  obtain ⟨-, -, e0, e1, -⟩ := index0 t
  unfold iblk0
  rw [View.read_apply]
  show V c main_v7 _ = V c main_v7 _
  refine congrArg (V c main_v7) ?_
  funext a
  apply Fin.ext
  match a with
  | ⟨0, _⟩ => show win0_1.index t 0 * 5000 + 1 * (x 0).val = (k 0).val; rw [e0, hk0]; omega
  | ⟨1, _⟩ => show win0_1.index t 1 * 1 + 1 * (x 1).val = (k 1).val; rw [e1, hk1]; omega

/-- What point `t` writes back is block row `t` of the feature array with its rows scaled. -/
theorem flushed_scaled (c : Dev nD) (t : Fin cfg0.N) :
    (dat0 V c).flushed 2 t = ((cfg0.win 2).blk t).view.read (Elt Ideal)
      (Cert.Gcn.scaleRows (a := 100000) (b := 128) (V c main_arg0) (V c main_v7)) := by
  show (cfg0.win 2).cut (grid0.coords t) ((dat0 V c).after 2 t) = _
  rw [after0_2]
  unfold out0_2
  rw [View.canon_unit_zero hz]
  simp only [View.ld_unit_zero (S := S5000x128) hz, View.ld_unit_zero (S := S5000x1) hz]
  rw [Blocks.scale_eq]
  obtain ⟨-, -, -, -, e0, e1⟩ := index0 t
  funext j
  show Cert.Gcn.scaleRows (a := 5000) (b := 128) (iblk0 V c 0 t) (iblk0 V c 1 t) j
    = Cert.Gcn.scaleRows (a := 100000) (b := 128) (V c main_arg0) (V c main_v7) (((cfg0.win 2).blk t).view.emb j)
  unfold Cert.Gcn.scaleRows
  refine congrArg₂ (· * ·) (feat_block V c t j _ ?_ ?_) (scale_block V c t _ _ ?_ ?_)
  · show win0_2.index t 0 * 5000 + 1 * (j 0).val = t.val * 5000 + (j 0).val; rw [e0]; omega
  · show win0_2.index t 1 * 128 + 1 * (j 1).val = (j 1).val; rw [e1]; omega
  · show win0_2.index t 0 * 5000 + 1 * (j 0).val = t.val * 5000 + (j 0).val; rw [e0]; omega
  · rfl

/-- An index of the output array is in point `t`'s block iff each coordinate is in the block's range. -/
theorem mem_out0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v8).slice (win0_2.rect t)).set ↔ _
  rw [View.set_slice_whole, Rect.mem_set_unit]
  exact Iff.rfl

/-- Row `r` of the output is written back by point `r / 5000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  have ht : (i 0).val / 5000 < grid0.N := by rw [hN]; omega
  obtain ⟨-, -, -, -, e0, e1⟩ := index0 ⟨(i 0).val / 5000, ht⟩
  refine ⟨⟨(i 0).val / 5000, ht⟩, flush0_2 _, ?_⟩
  rw [mem_out0]
  intro a
  match a with
  | ⟨0, _⟩ =>
    show win0_2.index ⟨(i 0).val / 5000, ht⟩ 0 * 5000 ≤ (i 0).val
      ∧ (i 0).val < win0_2.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_2.index ⟨(i 0).val / 5000, ht⟩ 1 * 128 ≤ (i 1).val
      ∧ (i 1).val < win0_2.index ⟨(i 0).val / 5000, ht⟩ 1 * 128 + 128
    rw [e1]; omega

/-- THE FIRST REGION'S OUTPUT: the feature array it was entered with, its rows scaled by the column it was entered
    with. -/
theorem scaled_array (c : Dev nD) :
    (dat0 V c).arrAt 2 cfg0.N = Cert.Gcn.scaleRows (a := 100000) (b := 128) (V c main_arg0) (V c main_v7) :=
  (dat0 V c).arrAt_eq_of_cover 2 _ (fun t _ => flushed_scaled V c t) cover0

/-! ## The second region: rows scaled, times the weights, plus the bias -/

/-- The second region's index maps over its grid: block row `t` for the aggregated rows, the scales and the output;
    the one block of the weights and of the bias row. -/
theorem index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregated window's block at point `t` is rows `5000·t …` of the aggregated array. -/
theorem agg_block (c : Dev nD) (t : Fin cfg1.N) (x : S5000x128.Idx) (k : S100000x128.Idx)
    (hk0 : (k 0).val = t.val * 5000 + (x 0).val) (hk1 : (k 1).val = (x 1).val) :
    (iblk1 V c 0 t : Vec Ideal S5000x128 .f32) x = (V c main_v18 : S100000x128.Idx → EReal) k := by
  obtain ⟨e0, e1, -⟩ := index1 t
  unfold iblk1
  rw [View.read_apply]
  show V c main_v18 _ = V c main_v18 _
  refine congrArg (V c main_v18) ?_
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The scale window's block at point `t` is rows `5000·t …` of the column of scales. -/
theorem scale_block1 (c : Dev nD) (t : Fin cfg1.N) (x : S5000x1.Idx) (k : S100000x1.Idx)
    (hk0 : (k 0).val = t.val * 5000 + (x 0).val) (hk1 : (k 1).val = (x 1).val) :
    (iblk1 V c 1 t : Vec Ideal S5000x1 .f32) x = (V c main_v7 : S100000x1.Idx → EReal) k := by
  obtain ⟨-, -, e0, e1, -⟩ := index1 t
  unfold iblk1
  rw [View.read_apply]
  show V c main_v7 _ = V c main_v7 _
  refine congrArg (V c main_v7) ?_
  funext a
  apply Fin.ext
  match a with
  | ⟨0, _⟩ => show win1_1.index t 0 * 5000 + 1 * (x 0).val = (k 0).val; rw [e0, hk0]; omega
  | ⟨1, _⟩ => show win1_1.index t 1 * 1 + 1 * (x 1).val = (k 1).val; rw [e1, hk1]; omega

/-- The weight window's block is the weight matrix, at every point. -/
theorem weight_block (c : Dev nD) (t : Fin cfg1.N) (x : S128x128.Idx) :
    (iblk1 V c 2 t : Vec Ideal S128x128 .f32) x = (V c main_arg1 : S128x128.Idx → EReal) x := by
  obtain ⟨-, -, -, -, e0, e1, -⟩ := index1 t
  unfold iblk1
  rw [View.read_apply]
  show V c main_arg1 _ = V c main_arg1 _
  refine congrArg (V c main_arg1) ?_
  funext a
  apply Fin.ext
  match a with
  | ⟨0, _⟩ => show win1_2.index t 0 * 128 + 1 * (x 0).val = (x 0).val; rw [e0]; omega
  | ⟨1, _⟩ => show win1_2.index t 1 * 128 + 1 * (x 1).val = (x 1).val; rw [e1]; omega

/-- The bias window's block is the bias row, at every point. -/
theorem bias_block (c : Dev nD) (t : Fin cfg1.N) (x : S1x128.Idx) :
    (iblk1 V c 3 t : Vec Ideal S1x128 .f32) x = (V c main_v19 : S1x128.Idx → EReal) x := by
  obtain ⟨-, -, -, -, -, -, e0, e1, -⟩ := index1 t
  unfold iblk1
  rw [View.read_apply]
  show V c main_v19 _ = V c main_v19 _
  refine congrArg (V c main_v19) ?_
  funext a
  apply Fin.ext
  match a with
  | ⟨0, _⟩ => show win1_3.index t 0 * 1 + 1 * (x 0).val = (x 0).val; rw [e0]; omega
  | ⟨1, _⟩ => show win1_3.index t 1 * 128 + 1 * (x 1).val = (x 1).val; rw [e1]; omega

/-- What point `t` writes back is block row `t` of `project` of the whole arrays. -/
theorem flushed_projected (c : Dev nD) (t : Fin cfg1.N) :
    (dat1 V c).flushed 4 t = ((cfg1.win 4).blk t).view.read (Elt Ideal)
      (Cert.Gcn.project (a := 100000) (k := 128) (b := 128) (V c main_v18) (V c main_v7) (V c main_arg1) (V c main_v19)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz,
    View.ld_unit_zero (S := S128x128) hz, View.ld_unit_zero (S := S1x128) hz]
  rw [Blocks.project_eq]
  obtain ⟨-, -, -, -, -, -, -, -, e0, e1⟩ := index1 t
  funext j
  show Cert.Gcn.project (a := 5000) (k := 128) (b := 128) (iblk1 V c 0 t) (iblk1 V c 1 t) (iblk1 V c 2 t) (iblk1 V c 3 t) j
    = Cert.Gcn.project (a := 100000) (k := 128) (b := 128) (V c main_v18) (V c main_v7) (V c main_arg1) (V c main_v19)
        (((cfg1.win 4).blk t).view.emb j)
  unfold Cert.Gcn.project
  have h0 : (((cfg1.win 4).blk t).view.emb j 0).val = t.val * 5000 + (j 0).val := by
    show win1_4.index t 0 * 5000 + 1 * (j 0).val = t.val * 5000 + (j 0).val; rw [e0]; omega
  have h1 : (((cfg1.win 4).blk t).view.emb j 1).val = (j 1).val := by
    show win1_4.index t 1 * 128 + 1 * (j 1).val = (j 1).val; rw [e1]; omega
  refine congrArg₂ (· + ·) (Finset.sum_congr rfl fun k _ => congrArg₂ (· * ·) (congrArg₂ (· * ·)
    (agg_block V c t _ _ h0 rfl) (scale_block1 V c t _ _ h0 rfl)) ((weight_block V c t _).trans ?_))
    ((bias_block V c t _).trans ?_)
  · exact congrArg (V c main_arg1 : S128x128.Idx → EReal) (funext fun a => Fin.ext (by
      match a with
      | ⟨0, _⟩ => rfl
      | ⟨1, _⟩ => exact h1.symm))
  · exact congrArg (V c main_v19 : S1x128.Idx → EReal) (funext fun a => Fin.ext (by
      match a with
      | ⟨0, _⟩ => rfl
      | ⟨1, _⟩ => exact h1.symm))

/-- An index of the output array is in point `t`'s block iff each coordinate is in the block's range. -/
theorem mem_out1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v20).slice (win1_4.rect t)).set ↔ _
  rw [View.set_slice_whole, Rect.mem_set_unit]
  exact Iff.rfl

/-- Row `r` of the output is written back by point `r / 5000`. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 20 := N_1
  have ht : (i 0).val / 5000 < grid1.N := by rw [hN]; omega
  obtain ⟨-, -, -, -, -, -, -, -, e0, e1⟩ := index1 ⟨(i 0).val / 5000, ht⟩
  refine ⟨⟨(i 0).val / 5000, ht⟩, flush1_4 _, ?_⟩
  rw [mem_out1]
  intro a
  match a with
  | ⟨0, _⟩ =>
    show win1_4.index ⟨(i 0).val / 5000, ht⟩ 0 * 5000 ≤ (i 0).val
      ∧ (i 0).val < win1_4.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win1_4.index ⟨(i 0).val / 5000, ht⟩ 1 * 128 ≤ (i 1).val
      ∧ (i 1).val < win1_4.index ⟨(i 0).val / 5000, ht⟩ 1 * 128 + 128
    rw [e1]; omega

/-- THE SECOND REGION'S OUTPUT: `project` of the four arrays it was entered with. -/
theorem projected_array (c : Dev nD) :
    (dat1 V c).arrAt 4 cfg1.N
      = Cert.Gcn.project (a := 100000) (k := 128) (b := 128) (V c main_v18) (V c main_v7) (V c main_arg1) (V c main_v19) :=
  (dat1 V c).arrAt_eq_of_cover 4 _ (fun t _ => flushed_projected V c t) cover1

end Cert.KernelIdeal.Regions

end
-- ==== Proof.HostChain.lean ====
/-
  The result array as a function of the five argument arrays.

  The host operations between the launch and the first region compute the vector of scales (the in-degree of every
  node, counted by a scatter-add of ones at the destination indices, clamped below at one, to the power -1/2) and view
  it as a column; the first region scales the rows of the features by it.  The host operations between the regions
  gather the scaled rows at the source indices (a negative index counted from the end) and scatter-add them at the
  destination indices, and view the bias as a row; the second region then forms `project` of the aggregated rows, the
  same column of scales, the weights and the bias row.  Neither the degree count nor the gather and scatter-add is ever
  opened here: they are two named functions, `scales` and `aggregate`, applied to the argument arrays.
-/
import proofs.«138295_j30193620090942_1_alg».proof.Proof.Gen.KernelIdeal.Frame
import proofs.«138295_j30193620090942_1_alg».proof.Proof.KernelRun
import proofs.«138295_j30193620090942_1_alg».proof.Proof.RegionArrays
import Idealize.ShloMosaic.Lib.StableHlo.Run
import Idealize.ShloMosaic.Lib.Pipeline.Value

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo
open Idealize.ShloMosaic.Pipeline (Dat)

/-- The vector of scales: every node's in-degree (ones scatter-added at the destination indices), clamped below at
    one, to the power -1/2. -/
def scales (dst : (⟨S600000, .i32⟩ : BufTy).Contents (Elt Ideal)) : (⟨S100000, .f32⟩ : BufTy).Contents (Elt Ideal) :=
  Host.powf
    (maximumf (broadcastInDim S100000 ![] bcast_S_S100000 (id (constant (F := Ideal) S_ .f32 0x3F800000#32)))
      (Host.scatterAdd scatter_S100000_S600000x1_S600000_n_0_0_1
        (broadcastInDim S100000 ![] bcast_S_S100000 (constant (F := Ideal) S_ .f32 0x00000000#32))
        (broadcastInDim S600000x1 ![0] bcast_S600000_S600000x1_0 dst)
        (broadcastInDim S600000 ![] bcast_S_S600000 (constant (F := Ideal) S_ .f32 0x3F800000#32))))
    (broadcastInDim S100000 ![] bcast_S_S100000 (constant (F := Ideal) S_ .f32 0xBF000000#32))

/-- The rows of `x` gathered at the source indices (a negative index counted from the end) and scatter-added, from
    zero, at the destination indices. -/
def aggregate (x : (⟨S100000x128, .f32⟩ : BufTy).Contents (Elt Ideal))
    (src dst : (⟨S600000, .i32⟩ : BufTy).Contents (Elt Ideal)) : (⟨S100000x128, .f32⟩ : BufTy).Contents (Elt Ideal) :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 dst)
    (Host.gather gather_S100000x128_S600000x1_S600000x128_1_0_n_n_0_1_1128 x
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 100000#32))) src)))

variable (m : (ℓ : Loc nD τ sig) → Buf (Elt Ideal) ℓ) (ρ : Dev nD → PrngReg)

/-- The result as a function of the argument arrays: `project` of the aggregated scaled features, the column of
    scales, the weights and the bias row. -/
def result (c : Dev nD) : S100000x128.Idx → EReal :=
  Cert.Gcn.project (a := 100000) (k := 128) (b := 128)
    (aggregate
      (Cert.Gcn.scaleRows (a := 100000) (b := 128) (m ((c : Thread nD τ).loc main_arg0))
        (shapeCast S100000x1 (scales (m ((c : Thread nD τ).loc main_arg4))) shapeCasts_S100000_S100000x1))
      (m ((c : Thread nD τ).loc main_arg3)) (m ((c : Thread nD τ).loc main_arg4)))
    (shapeCast S100000x1 (scales (m ((c : Thread nD τ).loc main_arg4))) shapeCasts_S100000_S100000x1)
    (m ((c : Thread nD τ).loc main_arg1))
    (shapeCast S1x128 (m ((c : Thread nD τ).loc main_arg2)) shapeCasts_S128_S1x128)

/-! ## The first region's entry contents -/

/-- No host operation before the first region writes an argument array. -/
theorem entry0_arg (c : Dev nD) :
    W3 m ρ c (Proc.devRef .tc main_arg0) = m ((c : Thread nD τ).loc main_arg0)
    ∧ W3 m ρ c (Proc.devRef .tc main_arg1) = m ((c : Thread nD τ).loc main_arg1)
    ∧ W3 m ρ c (Proc.devRef .tc main_arg2) = m ((c : Thread nD τ).loc main_arg2)
    ∧ W3 m ρ c (Proc.devRef .tc main_arg3) = m ((c : Thread nD τ).loc main_arg3)
    ∧ W3 m ρ c (Proc.devRef .tc main_arg4) = m ((c : Thread nD τ).loc main_arg4) := by
  refine ⟨?_, ?_, ?_, ?_, ?_⟩
  all_goals
    show StableHlo.after hostOps0_2 (StableHlo.after hostOps0_1 (StableHlo.after hostOps0 (W0 m ρ c))) _ = _
    simp only [hostOps0, hostOps0_1, hostOps0_2]
    after_results

/-- The column the first region is entered with is the vector of scales viewed as a column. -/
theorem entry0_col (c : Dev nD) :
    (W3 m ρ c (Proc.devRef .tc main_v7) : S100000x1.Idx → EReal)
      = shapeCast S100000x1 (scales (m ((c : Thread nD τ).loc main_arg4))) shapeCasts_S100000_S100000x1 := by
  show StableHlo.after hostOps0_2 (StableHlo.after hostOps0_1 (StableHlo.after hostOps0 (W0 m ρ c))) _ = _
  simp only [hostOps0, hostOps0_1, hostOps0_2]
  after_results
  rfl

/-! ## The first region's exit contents -/

/-- The first region leaves the features with their rows scaled. -/
theorem exit0_scaled (c : Dev nD) :
    (W4 m ρ c (Proc.devRef .tc main_v8) : S100000x128.Idx → EReal)
      = Cert.Gcn.scaleRows (a := 100000) (b := 128) (m ((c : Thread nD τ).loc main_arg0))
          (shapeCast S100000x1 (scales (m ((c : Thread nD τ).loc main_arg4))) shapeCasts_S100000_S100000x1) :=
  (W4_arr m ρ c 2).trans ((Regions.scaled_array (V3 m ρ) c).trans
    (congrArg₂ (Cert.Gcn.scaleRows (a := 100000) (b := 128)) (entry0_arg m ρ c).1 (entry0_col m ρ c)))

/-- The column of scales is an input of the first region: it leaves it as it found it. -/
theorem exit0_col (c : Dev nD) :
    (W4 m ρ c (Proc.devRef .tc main_v7) : S100000x1.Idx → EReal)
      = shapeCast S100000x1 (scales (m ((c : Thread nD τ).loc main_arg4))) shapeCasts_S100000_S100000x1 :=
  (W4_arr m ρ c 1).trans ((((dat0 (V3 m ρ) c).arrAt_in 1 rfl _).trans (A_eq0 (V3 m ρ) c 1)).trans (entry0_col m ρ c))

/-- The weights, the bias and the two index arrays are not arrays of the first region: it does not touch them. -/
theorem exit0_arg (c : Dev nD) :
    W4 m ρ c (Proc.devRef .tc main_arg1) = m ((c : Thread nD τ).loc main_arg1)
    ∧ W4 m ρ c (Proc.devRef .tc main_arg2) = m ((c : Thread nD τ).loc main_arg2)
    ∧ W4 m ρ c (Proc.devRef .tc main_arg3) = m ((c : Thread nD τ).loc main_arg3)
    ∧ W4 m ρ c (Proc.devRef .tc main_arg4) = m ((c : Thread nD τ).loc main_arg4) :=
  ⟨(W4_of_ne m ρ c main_arg1 (by decide)).trans (entry0_arg m ρ c).2.1,
   (W4_of_ne m ρ c main_arg2 (by decide)).trans (entry0_arg m ρ c).2.2.1,
   (W4_of_ne m ρ c main_arg3 (by decide)).trans (entry0_arg m ρ c).2.2.2.1,
   (W4_of_ne m ρ c main_arg4 (by decide)).trans (entry0_arg m ρ c).2.2.2.2⟩

/-! ## The second region's entry contents -/

/-- The aggregated rows the second region is entered with. -/
theorem entry1_agg (c : Dev nD) :
    (W5 m ρ c (Proc.devRef .tc main_v18) : S100000x128.Idx → EReal)
      = aggregate (W4 m ρ c (Proc.devRef .tc main_v8)) (W4 m ρ c (Proc.devRef .tc main_arg3))
          (W4 m ρ c (Proc.devRef .tc main_arg4)) := by
  show StableHlo.after hostOps1 (W4 m ρ c) _ = _
  simp only [hostOps1]
  after_results
  rfl

/-- The operations between the regions write neither the column of scales nor the weights. -/
theorem entry1_kept (c : Dev nD) :
    W5 m ρ c (Proc.devRef .tc main_v7) = W4 m ρ c (Proc.devRef .tc main_v7)
    ∧ W5 m ρ c (Proc.devRef .tc main_arg1) = W4 m ρ c (Proc.devRef .tc main_arg1) := by
  refine ⟨?_, ?_⟩
  all_goals
    show StableHlo.after hostOps1 (W4 m ρ c) _ = _
    simp only [hostOps1]
    after_results

/-- The bias row the second region is entered with is the bias viewed as a row. -/
theorem entry1_row (c : Dev nD) :
    (W5 m ρ c (Proc.devRef .tc main_v19) : S1x128.Idx → EReal)
      = shapeCast S1x128 (W4 m ρ c (Proc.devRef .tc main_arg2)) shapeCasts_S128_S1x128 := by
  show StableHlo.after hostOps1 (W4 m ρ c) _ = _
  simp only [hostOps1]
  after_results
  rfl

/-! ## The result -/

/-- The result array ends at `result` of the argument arrays. -/
theorem result_eq (c : Dev nD) : W6 m ρ c (Proc.devRef .tc main_v20) = result m c := by
  refine (Whole.result_arr m ρ c).trans ((Regions.projected_array (V5 m ρ) c).trans ?_)
  have e18 : (V5 m ρ c main_v18 : S100000x128.Idx → EReal)
      = aggregate
          (Cert.Gcn.scaleRows (a := 100000) (b := 128) (m ((c : Thread nD τ).loc main_arg0))
            (shapeCast S100000x1 (scales (m ((c : Thread nD τ).loc main_arg4))) shapeCasts_S100000_S100000x1))
          (m ((c : Thread nD τ).loc main_arg3)) (m ((c : Thread nD τ).loc main_arg4)) := by
    refine (entry1_agg m ρ c).trans ?_
    rw [exit0_scaled m ρ c, (exit0_arg m ρ c).2.2.1, (exit0_arg m ρ c).2.2.2]
  have e7 : (V5 m ρ c main_v7 : S100000x1.Idx → EReal)
      = shapeCast S100000x1 (scales (m ((c : Thread nD τ).loc main_arg4))) shapeCasts_S100000_S100000x1 :=
    (entry1_kept m ρ c).1.trans (exit0_col m ρ c)
  have e1 : (V5 m ρ c main_arg1 : S128x128.Idx → EReal) = m ((c : Thread nD τ).loc main_arg1) :=
    (entry1_kept m ρ c).2.trans (exit0_arg m ρ c).1
  have e19 : (V5 m ρ c main_v19 : S1x128.Idx → EReal)
      = shapeCast S1x128 (m ((c : Thread nD τ).loc main_arg2)) shapeCasts_S128_S1x128 := by
    refine (entry1_row m ρ c).trans ?_
    rw [(exit0_arg m ρ c).2.1]
  unfold result
  rw [e18, e7, e1, e19]

end Cert.KernelIdeal.HostChain

end
-- ==== Proof.LibBroadcastInDim.lean ====
/-
  Columns and rows set and spread by `broadcast_in_dim`, read at an index.

  A host program spreads a per-row scale over a matrix in two steps: the vector [a] is set as a column [a, 1]
  (`dims = [0]`), and the column is spread along the rows of an [a, b] array (`dims = [0, 1]`).  A per-column vector
  goes the other way round: [b] set as a row [1, b] (`dims = [1]`), the row spread down the rows of [a, b]
  (`dims = [0, 1]`).  Read at `(p, q)` the first array holds the vector's entry `p`, the second the vector's entry `q`.
  One lemma per step, for every extent (an axis of extent one is read at `0`, which is also its only index):
  • `vec_as_col`: [a] → [a, 1] at `(p, u)` is the vector at `p`;
  • `col_spread`: [a, 1] → [a, b] at `(p, q)` is the column at `(p, 0)`;
  • `vec_as_row`: [b] → [1, b] at `(u, q)` is the vector at `q`;
  • `row_spread`: [1, b] → [a, b] at `(p, q)` is the row at `(0, q)`.
-/
import Idealize.ShloMosaic.Lib.Pipeline.Value
import Idealize.ShloMosaic.Lib.ValueIdx

noncomputable section

namespace Cert.Lib.InDim

open Idealize.ShloMosaic Idealize.ShloMosaic.ValueIdx

variable {α : Type}

/-- A vector [a] set as a column [a, 1]: entry `(p, u)` is the vector's entry `p`. -/
theorem vec_as_col {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column [a, 1] spread along the rows of an [a, b] array: entry `(p, q)` is the column's entry in row `p`. -/
theorem col_spread {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A vector [b] set as a row [1, b]: entry `(u, q)` is the vector's entry `q`. -/
theorem vec_as_row {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread down the rows of an [a, b] array: entry `(p, q)` is the row's entry in column `q`. -/
theorem row_spread {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end Cert.Lib.InDim

end
-- ==== Proof.RefValue.lean ====
/-
  The reference's two dense steps are `scaleRows` and `project`.

  The reference scales rows by setting the vector of scales as a column and spreading the column over the matrix before
  an elementwise product; at `(p, q)` that is the entry times the scale of row `p`, which is `scaleRows` with the vector
  viewed as a column.  Its last three operations — the same scaling, the contraction with the weight matrix (entry
  `(p, q)` is the sum over `k` of row entry times column entry, the order of a finite sum being immaterial on the
  extended reals), and the bias set as a row and spread down the rows — are `project`.
-/
import proofs.«138295_j30193620090942_1_alg».proof.Proof.Gen.ReferenceIdeal
import proofs.«138295_j30193620090942_1_alg».proof.Proof.GcnSpec
import proofs.«138295_j30193620090942_1_alg».proof.Proof.LibPlainDot
import proofs.«138295_j30193620090942_1_alg».proof.Proof.LibKeepdims
import proofs.«138295_j30193620090942_1_alg».proof.Proof.LibBroadcastInDim
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen
open Idealize.ShloMosaic Idealize.ShloMosaic.ValueIdx

/-- The vector of scales set as a column and spread over the matrix reads, at `(p, q)`, the scale of row `p`. -/
theorem spread_scale (v : FVec Ideal S100000 .f32) (p : Fin 100000) (q : Fin 128) :
    broadcastInDim S100000x128 ![0, 1] bcast_S100000x1_S100000x128_0_1
        (broadcastInDim S100000x1 ![0] bcast_S100000_S100000x1_0 v) (ix2 p q) = v (ix1 p) := by
  rw [Cert.Lib.InDim.col_spread, Cert.Lib.InDim.vec_as_col]

/-- The reference's row scaling is `scaleRows` by the vector viewed as a column. -/
theorem scaled_eq (x : FVec Ideal S100000x128 .f32) (v : FVec Ideal S100000 .f32) (hc : S100000.ShapeCasts S100000x1) :
    mulf x (broadcastInDim S100000x128 ![0, 1] bcast_S100000x1_S100000x128_0_1
        (broadcastInDim S100000x1 ![0] bcast_S100000_S100000x1_0 v))
      = Cert.Gcn.scaleRows (a := 100000) (b := 128) x (shapeCast S100000x1 v hc) := by
  funext j
  obtain ⟨p, q, rfl⟩ : ∃ (p : Fin 100000) (q : Fin 128), j = ix2 p q := ⟨j 0, j 1, eq_ix2 j⟩
  rw [mulf_apply, spread_scale, Cert.Gcn.scaleRows_apply, Cert.Lib.Keepdims.shapeCast_a_a1_apply]

/-- The reference's scaling, contraction with the weights and bias addition are `project`, the vector of scales viewed
    as a column and the bias as a row. -/
theorem projected_eq (x : FVec Ideal S100000x128 .f32) (v : FVec Ideal S100000 .f32) (w : FVec Ideal S128x128 .f32)
    (r : FVec Ideal S128 .f32) (hc : S100000.ShapeCasts S100000x1) (hr : S128.ShapeCasts S1x128) :
    addf (Host.dotGeneral (F := Ideal) dot_S100000x128_S128x128_S100000x128_1_0_0_1_n_n none
          (mulf x (broadcastInDim S100000x128 ![0, 1] bcast_S100000x1_S100000x128_0_1
            (broadcastInDim S100000x1 ![0] bcast_S100000_S100000x1_0 v))) w)
        (broadcastInDim S100000x128 ![0, 1] bcast_S1x128_S100000x128_0_1 (broadcastInDim S1x128 ![1] bcast_S128_S1x128_1 r))
      = Cert.Gcn.project (a := 100000) (k := 128) (b := 128) x (shapeCast S100000x1 v hc) w (shapeCast S1x128 r hr) := by
  funext j
  obtain ⟨p, q, rfl⟩ : ∃ (p : Fin 100000) (q : Fin 128), j = ix2 p q := ⟨j 0, j 1, eq_ix2 j⟩
  rw [addf_apply, Cert.Gcn.project_apply, Cert.Lib.InDim.row_spread, Cert.Lib.InDim.vec_as_row, shapeCast_a_1a_apply]
  refine congrArg₂ (· + ·) ?_ rfl
  refine (Cert.PlainDot.hostDot_apply (M := 100000) (K := 128) (N := 128)
    dot_S100000x128_S128x128_S100000x128_1_0_0_1_n_n rfl _ _ p q).trans ?_
  refine Finset.sum_congr rfl fun k _ => ?_
  rw [mulf_apply, spread_scale, Cert.Lib.Keepdims.shapeCast_a_a1_apply]

end Cert.ReferenceIdeal.RefValue

end
-- ==== Proof.Bridge.lean ====
/-
  The reference's result is the same function of the argument arrays.

  The reference computes the vector of scales and the gather and scatter-add by the very operations the kernel's host
  stretches use, on the same arguments; its row scaling before them is `scaleRows` and its last three operations are
  `project`.  So its result is `project` of the aggregated scaled features, the column of scales, the weights and the
  bias row: the function the kernel's result array ends at.
-/
import proofs.«138295_j30193620090942_1_alg».proof.Proof.HostChain
import proofs.«138295_j30193620090942_1_alg».proof.Proof.RefValue

noncomputable section

namespace Cert.ReferenceIdeal.Bridge

open Cert.ReferenceIdeal Cert.ReferenceIdeal.Gen
open Idealize.ShloMosaic

/-- The reference's composed term, over any argument arrays, is the kernel's function of them. -/
theorem result_eq (feat : FVec Ideal S100000x128 .f32) (w : FVec Ideal S128x128 .f32) (b : FVec Ideal S128 .f32)
    (src dst : IVec S600000 32) :
    addf (Host.dotGeneral dot_S100000x128_S128x128_S100000x128_1_0_0_1_n_n none (mulf (Host.scatterAdd scatter_S100000x128_S600000x1_S600000x128_1_0_0_1 (broadcastInDim S100000x128 ![] bcast_S_S100000x128 (constant (F := Ideal) S_ .f32 0x00000000#32)) (broadcastInDim S600000x1 ![0] bcast_S600000_S600000x1_0 dst) (Host.gather gather_S100000x128_S600000x1_S600000x128_1_0_n_n_0_1_1128 (mulf feat (broadcastInDim S100000x128 ![0, 1] bcast_S100000x1_S100000x128_0_1 (broadcastInDim S100000x1 ![0] bcast_S100000_S100000x1_0 (Host.powf (maximumf (broadcastInDim S100000 ![] bcast_S_S100000 (id (constant (F := Ideal) S_ .f32 0x3F800000#32))) (Host.scatterAdd scatter_S100000_S600000x1_S600000_n_0_0_1 (broadcastInDim S100000 ![] bcast_S_S100000 (constant (F := Ideal) S_ .f32 0x00000000#32)) (broadcastInDim S600000x1 ![0] bcast_S600000_S600000x1_0 dst) (broadcastInDim S600000 ![] bcast_S_S600000 (constant (F := Ideal) S_ .f32 0x3F800000#32)))) (broadcastInDim S100000 ![] bcast_S_S100000 (constant (F := Ideal) S_ .f32 0xBF000000#32)))))) (broadcastInDim S600000x1 ![0] bcast_S600000_S600000x1_0 (select (cmpi .slt src (broadcastInDim S600000 ![] bcast_S_S600000 (constantI S_ 32 0#32))) (addi src (broadcastInDim S600000 ![] bcast_S_S600000 (constantI S_ 32 100000#32))) src)))) (broadcastInDim S100000x128 ![0, 1] bcast_S100000x1_S100000x128_0_1 (broadcastInDim S100000x1 ![0] bcast_S100000_S100000x1_0 (Host.powf (maximumf (broadcastInDim S100000 ![] bcast_S_S100000 (id (constant (F := Ideal) S_ .f32 0x3F800000#32))) (Host.scatterAdd scatter_S100000_S600000x1_S600000_n_0_0_1 (broadcastInDim S100000 ![] bcast_S_S100000 (constant (F := Ideal) S_ .f32 0x00000000#32)) (broadcastInDim S600000x1 ![0] bcast_S600000_S600000x1_0 dst) (broadcastInDim S600000 ![] bcast_S_S600000 (constant (F := Ideal) S_ .f32 0x3F800000#32)))) (broadcastInDim S100000 ![] bcast_S_S100000 (constant (F := Ideal) S_ .f32 0xBF000000#32)))))) w) (broadcastInDim S100000x128 ![0, 1] bcast_S1x128_S100000x128_0_1 (broadcastInDim S1x128 ![1] bcast_S128_S1x128_1 b))
      = Cert.Gcn.project (a := 100000) (k := 128) (b := 128)
          (Cert.KernelIdeal.HostChain.aggregate
            (Cert.Gcn.scaleRows (a := 100000) (b := 128) feat
              (shapeCast Cert.KernelIdeal.S100000x1 (Cert.KernelIdeal.HostChain.scales dst) Cert.KernelIdeal.Facts₀.shapeCasts_S100000_S100000x1))
            src dst)
          (shapeCast Cert.KernelIdeal.S100000x1 (Cert.KernelIdeal.HostChain.scales dst) Cert.KernelIdeal.Facts₀.shapeCasts_S100000_S100000x1)
          w (shapeCast Cert.KernelIdeal.S1x128 b Cert.KernelIdeal.Facts₀.shapeCasts_S128_S1x128) := by
  rw [RefValue.projected_eq _ _ _ _ Cert.KernelIdeal.Facts₀.shapeCasts_S100000_S100000x1 Cert.KernelIdeal.Facts₀.shapeCasts_S128_S1x128,
    RefValue.scaled_eq _ _ Cert.KernelIdeal.Facts₀.shapeCasts_S100000_S100000x1]
  rfl

end Cert.ReferenceIdeal.Bridge

end
-- ==== Proof.lean ====
/-
  A degree-normalised graph convolution: two dense kernels around a host gather and scatter-add, against the plain
  array program.

  Both programs compute, for features `x` [100000, 128], weights `W` [128, 128], a bias [128] and 600000 edges
  (source, destination): the scale `n(p) = max(1, indegree(p))^(-1/2)` of every node; the features with row `p` times
  `n(p)`; the rows gathered at the edges' sources and scatter-added at their destinations; that array with row `p`
  times `n(p)` again, times `W`, plus the bias on every row.  The kernel program does the first scaling and the last
  three steps in two row-blocked regions of twenty points each (the second one narrowing its two factors to bf16 before
  the matrix unit's product, which on the extended reals changes nothing); the reference does them by elementwise
  products over spread copies of the scales, one contraction and a spread bias.  The degree count and the gather and
  scatter-add are the same host operations on the same values in both programs and are never opened.

  On the extended reals the two dense steps are one function each in both programs (`scaleRows`, `project`): a product
  entry by entry, and a finite sum of products plus a term, with the same factors in the same order inside each
  product, so no law beyond reading each side at an index is used and the inputs' finiteness is not needed.
  The three frames: both kernel programs' are the launch of their six segments; the reference's is its run with the
  result dropped.  The idealization rewrote nothing, so there is nothing to preserve.
-/
import proofs.«138295_j30193620090942_1_alg».proof.Defs
import proofs.«138295_j30193620090942_1_alg».proof.Proof.Gen.Kernel
import proofs.«138295_j30193620090942_1_alg».proof.Proof.Gen.Kernel.Skeleton
import proofs.«138295_j30193620090942_1_alg».proof.Proof.Gen.Kernel.Launch
import proofs.«138295_j30193620090942_1_alg».proof.Proof.Gen.Kernel.Points
import proofs.«138295_j30193620090942_1_alg».proof.Proof.Gen.Kernel.Frame
import proofs.«138295_j30193620090942_1_alg».proof.Proof.Gen.KernelIdeal
import proofs.«138295_j30193620090942_1_alg».proof.Proof.Gen.KernelIdeal.Skeleton
import proofs.«138295_j30193620090942_1_alg».proof.Proof.Gen.KernelIdeal.Launch
import proofs.«138295_j30193620090942_1_alg».proof.Proof.Gen.KernelIdeal.Points
import proofs.«138295_j30193620090942_1_alg».proof.Proof.Gen.KernelIdeal.Frame
import proofs.«138295_j30193620090942_1_alg».proof.Proof.Gen.ReferenceIdeal
import proofs.«138295_j30193620090942_1_alg».proof.Proof.Gen.ReferenceIdeal.Run
import proofs.«138295_j30193620090942_1_alg».proof.Proof.Gen.Pre_finite_inputs
import proofs.«138295_j30193620090942_1_alg».proof.Proof.KernelRun
import proofs.«138295_j30193620090942_1_alg».proof.Proof.HostChain
import proofs.«138295_j30193620090942_1_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments both programs end with the result array at `project` of the
    aggregated scaled features, the column of scales, the weights and the bias row. -/
theorem algebraic : Cert.algebraic_KernelIdeal_ReferenceIdeal := by
  intro m ρ m' ρ' _ hagree
  refine ⟨fun c => Cert.KernelIdeal.HostChain.result m c, ?_, ?_⟩
  · exact (θ_run Cert.KernelIdeal.defs _ _).mono
      (fun _ h c => ⟨(h c).1.trans (Cert.KernelIdeal.HostChain.result_eq m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4⟩ := hagree c
    rw [a0, a1, a2, a3, a4]
    exact Cert.ReferenceIdeal.Bridge.result_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
